-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S2048x256 : Shape := ⟨2, ![2048, 256]⟩
abbrev S1x2048 : Shape := ⟨2, ![1, 2048]⟩
abbrev S2048x1 : Shape := ⟨2, ![2048, 1]⟩
abbrev S2048x2048 : Shape := ⟨2, ![2048, 2048]⟩
abbrev S2048 : Shape := ⟨1, ![2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x1, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S2048x1, .f32⟩
  | .local _ .vmem, ⟨7, _⟩ => ⟨S2048x1, .f32⟩
  | .local _ .vmem, ⟨8, _⟩ => ⟨S2048x2048, .f32⟩
  | .local _ .vmem, ⟨9, _⟩ => ⟨S2048x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def k0_cond4 (i : grid0.Coords) : BitVec 1 :=
  let arg1 : BitVec 32 := BitVec.ofNat 32 (i 1).val
  let c1_i32 : BitVec 32 := 1#32
  let v21 : BitVec 1 := Scalar.cmpi .eq arg1 c1_i32
  let arg2 : BitVec 32 := BitVec.ofNat 32 (i 2).val
  let c15_i32_12 : BitVec 32 := 15#32
  let v22 : BitVec 1 := Scalar.cmpi .eq arg2 c15_i32_12
  let v23 : BitVec 1 := Scalar.andi v21 v22
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S4096_S1x4096 : S4096.ShapeCasts S1x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  reduces_S2048x2048_S2048 : S2048x2048.Reduces [1] S2048
  shapeCasts_S2048_S2048x1 : S2048.ShapeCasts S2048x1
  reduces_S2048x1_S2048 : S2048x1.Reduces [1] S2048
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  reducesTo_S4096x1_S4096_d1 : S4096x1.ReducesTo [1] S4096
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.ExtReal.lean ====
/-
  Extended-real facts for a row maximum that is centred on its own mean and passed through the tanh form of GELU.

  An extended real is called finite when it is neither infinity.  Sums and products of finite numbers are finite, and so
  is the maximum, started from minus infinity, over a nonempty family of finite numbers.  A finite number minus itself
  is zero, and zero times anything is zero on the extended reals: this is all that the centred value
  m - mean(m), taken over an axis of length one, needs in order to vanish.
-/
import Idealize.ShloMosaic.PureOps.Ideal
import Idealize.ShloMosaic.PureOps.Ideal.Laws

noncomputable section

open scoped BigOperators

namespace Cert.ExtReal

open Idealize.ShloMosaic

/-- An extended real that is neither infinity. -/
def IsReal (x : EReal) : Prop := x ≠ ⊥ ∧ x ≠ ⊤

theorem isReal_coe (r : ℝ) : IsReal (r : EReal) := ⟨EReal.coe_ne_bot r, EReal.coe_ne_top r⟩

theorem IsReal.exists {x : EReal} (h : IsReal x) : ∃ r : ℝ, x = (r : EReal) :=
  ⟨x.toReal, (EReal.coe_toReal h.2 h.1).symm⟩

theorem isReal_zero : IsReal (0 : EReal) := isReal_coe 0

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

/-- A finite sum of finite numbers is finite. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self _ _)).add (ih fun i hi => h i (Finset.mem_insert_of_mem hi))

/-- The maximum of something below plus infinity with a finite number is finite. -/
theorem isReal_max {a b : EReal} (ha : a ≠ ⊤) (hb : IsReal b) : IsReal (max a b) := by
  refine ⟨?_, ?_⟩
  · exact ne_of_gt (lt_of_lt_of_le (bot_lt_iff_ne_bot.2 hb.1) (le_max_right a b))
  · exact ne_of_lt (max_lt (lt_top_iff_ne_top.2 ha) (lt_top_iff_ne_top.2 hb.2))

/-- The running maximum, from a start below plus infinity, over a nonempty family of finite numbers is finite. -/
theorem isReal_fold_max {ι : Type*} (s : Finset ι) (b : EReal) (f : ι → EReal) (hb : b ≠ ⊤) (hs : s.Nonempty)
    (h : ∀ i ∈ s, IsReal (f i)) : IsReal (s.fold max b f) := by
  refine ⟨?_, ?_⟩
  · obtain ⟨i, hi⟩ := hs
    exact ne_of_gt ((Finset.lt_fold_max _).2 (Or.inr ⟨i, hi, bot_lt_iff_ne_bot.2 (h i hi).1⟩))
  · exact ne_of_lt ((Finset.fold_max_lt _).2 ⟨lt_top_iff_ne_top.2 hb, fun i hi => lt_top_iff_ne_top.2 (h i hi).2⟩)

/-- The word of minus infinity denotes the bottom element. -/
theorem ofBits_neg_inf : Ideal.ofBits .f32 0xFF800000#32 = ⊥ := by simp [Ideal.ofBits, Ideal.ieee]

/-- The word of one denotes the real number one. -/
theorem ofBits_one : Ideal.ofBits .f32 0x3F800000#32 = ((1 : ℝ) : EReal) := by
  simp [Ideal.ofBits, Ideal.ieee]
  norm_cast
  norm_num

/-- A quotient by one is the dividend. -/
theorem div_one (x : EReal) : Ideal.div x (Ideal.ofBits .f32 0x3F800000#32) = x := by
  rw [ofBits_one, Ideal.div_coe one_ne_zero]
  simp

/-- A finite number minus itself is zero. -/
theorem sub_self_of_isReal {x : EReal} (hx : IsReal x) : x - x = 0 := by
  obtain ⟨a, rfl⟩ := hx.exists
  rw [← EReal.coe_sub, sub_self, EReal.coe_zero]

/-- The value centred on its own mean over an axis of length one: m - (s / 1), with s the sum of the one entry m
    (possibly after adding the zero it started from), is zero for a finite m. -/
theorem centred_eq_zero {m s : EReal} (hm : IsReal m) (hs : s = m) :
    m - Ideal.div s (Ideal.ofBits .f32 0x3F800000#32) = 0 := by
  rw [hs, div_one, sub_self_of_isReal hm]

end Cert.ExtReal

end
-- ==== Proof.FiniteInputs.lean ====
/-
  The precondition read back: when the predicate "every entry of x, W and b is below plus infinity in absolute value"
  evaluates to true at the ideal values, every entry of the three arrays is a finite extended real.
-/
import proofs.«136258_j25056839205334_2_alg».proof.Pre_finite_inputs
import proofs.«136258_j25056839205334_2_alg».proof.Proof.ExtReal
import Idealize.ShloMosaic.Lib.ReduceAll
import Idealize.ShloMosaic.Lib.ValueIdx
import Idealize.ShloMosaic.PureOps.Ideal.Laws

noncomputable section

namespace Cert.FiniteInputs

open Cert.ExtReal Idealize.ShloMosaic

/-- The word of plus infinity denotes the top element. -/
theorem ofBits_pos_inf : Ideal.ofBits .f32 0x7F800000#32 = ⊤ := by simp [Ideal.ofBits, Ideal.ieee]

/-- An extended real whose absolute value compares below plus infinity is finite. -/
theorem isReal_of_abs_lt (x : EReal)
    (h : Ideal.cmp .olt (max x (-x)) (Ideal.ofBits .f32 0x7F800000#32) = 1#1) : IsReal x := by
  rw [ofBits_pos_inf] at h
  have hlt : max x (-x) < ⊤ := by
    by_contra hn
    simp [Ideal.cmp, hn] at h
  refine ⟨fun hb => ?_, fun ht => ?_⟩
  · subst hb; simp at hlt
  · subst ht; simp at hlt

/-- The precondition's three conjuncts, element by element. -/
theorem finite_of_pre [Cert.Pre_finite_inputs.Facts] (a0 a1 : FVec Ideal Cert.Pre_finite_inputs.S4096x4096 .f32)
    (a2 : FVec Ideal Cert.Pre_finite_inputs.S4096 .f32)
    (h : Cert.Pre_finite_inputs.fn (F := Ideal) a0 a1 a2 = fun _ => 1#1) :
    (∀ i, IsReal (a0 i)) ∧ (∀ i, IsReal (a1 i)) ∧ (∀ i, IsReal (a2 i)) := by
  have h' := congrFun h ValueIdx.ix0
  dsimp only [Cert.Pre_finite_inputs.fn] at h'
  obtain ⟨h37, h12⟩ := IntOp.andi_eq_one.1 h'
  obtain ⟨h3, h7⟩ := IntOp.andi_eq_one.1 h37
  haveI : Subsingleton Cert.Pre_finite_inputs.S_.Idx := ⟨fun a b => funext fun d => d.elim0⟩
  refine ⟨fun i => ?_, fun i => ?_, fun i => ?_⟩
  · exact isReal_of_abs_lt _ (Host.reduce_andi_all _ _ _ _ _ h3 i)
  · exact isReal_of_abs_lt _ (Host.reduce_andi_all _ _ _ _ _ h7 i)
  · exact isReal_of_abs_lt _ (Host.reduce_andi_all _ _ _ _ _ h12 i)

end Cert.FiniteInputs

end
-- ==== Proof.CasePieces.lean ====
/-
  What each control case of the fused kernel body leaves in its two carried scratch buffers and in the output's staging
  buffer, as the body's own arithmetic applied to what the point found there.

  The body has four guarded parts around one unguarded step.  At the first reduction step of the first column block
  the running row maximum is reset to minus infinity; at the first reduction step of every column block the accumulator
  is reset to the bias row repeated down the rows; always the accumulator gains the product of the two operand blocks;
  at the last reduction step the running maximum takes in the accumulator's row maxima; at the last step of the last
  column block the output is computed from the running maximum.  Every store overwrites its whole buffer, and every
  load that follows a store reads back what was stored, so each case is a composition of those steps.
-/
import proofs.«136258_j25056839205334_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First step of the first column block: the accumulator is the bias rows plus the block product. -/
theorem acc_first (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : cond0_0 i) (hc1 : cond0_1 i) (hc2 : ¬cond0_2 i) (hc3 : ¬cond0_3 i)
    (x0 : Vec F S2048x256 .f32) (x1 : Vec F S2048x256 .f32) (x2 : Vec F S1x2048 .f32) :
    sout0_A_0 c i arg3 harg3 arg4 harg4 arg5 harg5 arg6 harg6 arg7 harg7 arg8 harg8 hc0 hc1 hc2 hc3 x0 x1 x2 = k0_pay3 x0 x1 (k0_pay2 x2) := by
  unfold sout0_A_0
  rw [View.read_writes_eq_canon _ _ _ (scover0_A_0 c i arg3 harg3 arg4 harg4 arg5 harg5 arg6 harg6 arg7 harg7 arg8 harg8 hc0 hc1 hc2 hc3 x0 x1 x2)]
  unfold kernelRun0_A
  dsimp only
  sl_unfold_words
  rw [View.canon_cons_unit_zero (S := S2048x2048) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- First step of the first column block: the running maximum is reset to minus infinity. -/
theorem max_first (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : cond0_0 i) (hc1 : cond0_1 i) (hc2 : ¬cond0_2 i) (hc3 : ¬cond0_3 i)
    (x0 : Vec F S2048x256 .f32) (x1 : Vec F S2048x256 .f32) (x2 : Vec F S1x2048 .f32) :
    sout0_A_1 c i arg3 harg3 arg4 harg4 arg5 harg5 arg6 harg6 arg7 harg7 arg8 harg8 hc0 hc1 hc2 hc3 x0 x1 x2 = k0_pay1 := by
  unfold sout0_A_1
  rw [View.read_writes_eq_canon _ _ _ (scover0_A_1 c i arg3 harg3 arg4 harg4 arg5 harg5 arg6 harg6 arg7 harg7 arg8 harg8 hc0 hc1 hc2 hc3 x0 x1 x2)]
  unfold kernelRun0_A
  dsimp only
  sl_unfold_words
  rw [View.canon_unit_zero (S := S2048x1) hz]

/-- A middle step: the accumulator gains the block product. -/
theorem acc_middle (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : ¬cond0_2 i) (hc3 : ¬cond0_3 i)
    (x0 : Vec F S2048x256 .f32) (x1 : Vec F S2048x256 .f32) (x2 : Vec F S1x2048 .f32) (xs0 : Vec F S2048x2048 .f32) (xs1 : Vec F S2048x1 .f32) :
    sout0_B_0 c i arg3 harg3 arg4 harg4 arg5 harg5 arg6 harg6 arg7 harg7 arg8 harg8 hc0 hc1 hc2 hc3 x0 x1 x2 xs0 xs1 = k0_pay3 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 x2 xs0 xs1)]
  unfold kernelRun0_B
  dsimp only
  sl_unfold_words
  rw [View.canon_unit_zero (S := S2048x2048) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- Last step of the first column block: the accumulator gains the block product. -/
theorem acc_last (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : cond0_2 i) (hc3 : ¬cond0_3 i)
    (x0 : Vec F S2048x256 .f32) (x1 : Vec F S2048x256 .f32) (x2 : Vec F S1x2048 .f32) (xs0 : Vec F S2048x2048 .f32) (xs1 : Vec F S2048x1 .f32) :
    sout0_C_0 c i arg3 harg3 arg4 harg4 arg5 harg5 arg6 harg6 arg7 harg7 arg8 harg8 hc0 hc1 hc2 hc3 x0 x1 x2 xs0 xs1 = k0_pay3 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero (S := S2048x2048) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- Last step of the first column block: the running maximum takes in the row maxima of the finished accumulator. -/
theorem max_last (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : cond0_2 i) (hc3 : ¬cond0_3 i)
    (x0 : Vec F S2048x256 .f32) (x1 : Vec F S2048x256 .f32) (x2 : Vec F S1x2048 .f32) (xs0 : Vec F S2048x2048 .f32) (xs1 : Vec F S2048x1 .f32) :
    sout0_C_1 c i arg3 harg3 arg4 harg4 arg5 harg5 arg6 harg6 arg7 harg7 arg8 harg8 hc0 hc1 hc2 hc3 x0 x1 x2 xs0 xs1 = k0_pay4 (k0_pay3 x0 x1 xs0) xs1 := by
  unfold sout0_C_1
  rw [View.read_writes_eq_canon _ _ _ (scover0_C_1 c i arg3 harg3 arg4 harg4 arg5 harg5 arg6 harg6 arg7 harg7 arg8 harg8 hc0 hc1 hc2 hc3 x0 x1 x2 xs0 xs1)]
  unfold kernelRun0_C
  dsimp only
  sl_unfold_words
  rw [View.canon_unit_zero (S := S2048x1) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- First step of the second column block: the accumulator restarts from the bias rows plus the block product. -/
theorem acc_restart (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : cond0_1 i) (hc2 : ¬cond0_2 i) (hc3 : ¬cond0_3 i)
    (x0 : Vec F S2048x256 .f32) (x1 : Vec F S2048x256 .f32) (x2 : Vec F S1x2048 .f32) (xs1 : Vec F S2048x1 .f32) :
    sout0_D_0 c i arg3 harg3 arg4 harg4 arg5 harg5 arg6 harg6 arg7 harg7 arg8 harg8 hc0 hc1 hc2 hc3 x0 x1 x2 xs1 = k0_pay3 x0 x1 (k0_pay2 x2) := by
  unfold sout0_D_0
  rw [View.read_writes_eq_canon _ _ _ (scover0_D_0 c i arg3 harg3 arg4 harg4 arg5 harg5 arg6 harg6 arg7 harg7 arg8 harg8 hc0 hc1 hc2 hc3 x0 x1 x2 xs1)]
  unfold kernelRun0_D
  dsimp only
  sl_unfold_words
  rw [View.canon_cons_unit_zero (S := S2048x2048) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- The very last step of a row block: the accumulator gains the block product. -/
theorem acc_final (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : cond0_2 i) (hc3 : cond0_3 i)
    (x0 : Vec F S2048x256 .f32) (x1 : Vec F S2048x256 .f32) (x2 : Vec F S1x2048 .f32) (xs0 : Vec F S2048x2048 .f32) (xs1 : Vec F S2048x1 .f32) :
    sout0_E_0 c i arg3 harg3 arg4 harg4 arg5 harg5 arg6 harg6 arg7 harg7 arg8 harg8 hc0 hc1 hc2 hc3 x0 x1 x2 xs0 xs1 = k0_pay3 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S2048x2048) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- The very last step of a row block: the running maximum takes in the row maxima of the finished accumulator. -/
theorem max_final (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : cond0_2 i) (hc3 : cond0_3 i)
    (x0 : Vec F S2048x256 .f32) (x1 : Vec F S2048x256 .f32) (x2 : Vec F S1x2048 .f32) (xs0 : Vec F S2048x2048 .f32) (xs1 : Vec F S2048x1 .f32) :
    sout0_E_1 c i arg3 harg3 arg4 harg4 arg5 harg5 arg6 harg6 arg7 harg7 arg8 harg8 hc0 hc1 hc2 hc3 x0 x1 x2 xs0 xs1 = k0_pay4 (k0_pay3 x0 x1 xs0) xs1 := by
  unfold sout0_E_1
  rw [View.read_writes_eq_canon _ _ _ (scover0_E_1 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S2048x1) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

/-- The very last step of a row block: the output block is computed from the finished running maximum. -/
theorem out_final (c : Dev nD) (i : grid0.Coords) (arg3 : Memref sig .tc .vmem S2048x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S2048x1 .f32) (harg6 : arg6.IsWhole) (arg7 : Memref sig .tc .vmem S2048x2048 .f32) (harg7 : arg7.IsWhole) (arg8 : Memref sig .tc .vmem S2048x1 .f32) (harg8 : arg8.IsWhole) (hc0 : ¬cond0_0 i) (hc1 : ¬cond0_1 i) (hc2 : cond0_2 i) (hc3 : cond0_3 i)
    (x0 : Vec F S2048x256 .f32) (x1 : Vec F S2048x256 .f32) (x2 : Vec F S1x2048 .f32) (xs0 : Vec F S2048x2048 .f32) (xs1 : Vec F S2048x1 .f32) :
    out0_E_3 c i arg3 harg3 arg4 harg4 arg5 harg5 arg6 harg6 arg7 harg7 arg8 harg8 hc0 hc1 hc2 hc3 x0 x1 x2 xs0 xs1 = k0_pay5 (k0_pay4 (k0_pay3 x0 x1 xs0) xs1) := by
  unfold out0_E_3
  rw [View.read_writes_eq_canon _ _ _ (cover0_E_3 c i arg3 harg3 arg4 harg4 arg5 harg5 arg6 harg6 arg7 harg7 arg8 harg8 hc0 hc1 hc2 hc3 x0 x1 x2 xs0 xs1)]
  unfold kernelRun0_E
  dsimp only
  sl_unfold_words
  rw [View.canon_unit_zero (S := S2048x1) hz]
  simp only [View.readCov_unit_zero (S := S2048x2048) _ hz, View.readCov_unit_zero (S := S2048x1) _ hz, View.readAt_eq_ld,
    harg3.read_unread, harg4.read_unread, harg5.read_unread, harg7.read_unread, harg8.read_unread,
    View.ld_unit_zero (S := S2048x256) hz, View.ld_unit_zero (S := S2048x2048) hz, View.ld_unit_zero (S := S2048x1) hz,
    View.ld_unit_zero (S := S1x2048) hz]

end Cert.KernelIdeal.Pieces

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibSoftmaxStages.lean ====
/-
  The stages of a row softmax, and two re-laid arrays, read at an index given by coordinates, at the ideal values.

  For an [a, b] array S: the maximum along each row is the fold of max from the accumulator's value over the row;
  a row reduction kept as an [a, 1] column and spread back along the rows reads, at (r, t), the reduction of row r;
  so the exponential of S below its row maxima is, at (r, t), exp (S (r, t) − max over row r), and an array divided
  by its row sums is, at (r, t), its entry over the sum of row r.  An [a, b] matrix viewed with two leading unit
  axes, and back, keeps every element at its row-major position.  Nothing here names a particular program.
-/
import Idealize.ShloMosaic.Lib.Pipeline.Value
import Idealize.ShloMosaic.Lib.ValueIdx
import Idealize.ShloMosaic.PureOps.Ideal.Laws
import proofs.«136258_j25056839205334_2_alg».proof.Proof.LibKeptColumn
import proofs.«136258_j25056839205334_2_alg».proof.Proof.LibSumsAtIndex

noncomputable section

open scoped BigOperators

namespace Idealize.ShloMosaic.SoftmaxStages

open Idealize.ShloMosaic Idealize.ShloMosaic.ValueIdx

/-- The vector unit's maximum along axis 1 of an [a, b] array, at row r: the fold of max from the accumulator's
    value over the entries of row r. -/
theorem rowmax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  have hf : (src ∘ h.lift (ix1 r)) = fun d : Fin b => src (ix2 r d) :=
    funext fun d => congrArg src (funext fun ax => Fin.ext (by
      match ax with
      | ⟨0, _⟩ => rfl
      | ⟨1, _⟩ => rfl))
  exact congrArg (fun f => Finset.fold max (Ideal.ofBits .f32 acc) f (Finset.univ : Finset (Fin b))) hf

/-- A vector of length a kept as an [a, 1] column and spread along the rows of an [a, b] array reads, at (r, t),
    the vector's entry r. -/
theorem kept_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (t : Fin b) :
    broadcastTo ⟨2, ![a, b]⟩ (shapeCast ⟨2, ![a, 1]⟩ v hc) hb (ix2 r t) = v (ix1 r) :=
  (KeptColumn.broadcastTo_a1_ab_apply _ hb r t).trans (KeptColumn.shapeCast_a_a1_apply v hc r 0)

/-- The exponentials of an [a, b] array below its row maxima, at (r, t). -/
theorem exp_sub_rowmax_apply {a b : ℕ} (S : FVec Ideal ⟨2, ![a, b]⟩ .f32) (acc : BitVec FTy.f32.bits)
    (hr : (⟨2, ![a, b]⟩ : Shape).Reduces [1] ⟨1, ![a]⟩) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    exp (subf S (broadcastTo ⟨2, ![a, b]⟩ (shapeCast ⟨2, ![a, 1]⟩
        (multiReduction .maximumf [1] ⟨1, ![a]⟩ S acc hr hφ hacc) hc) hb)) (ix2 r t)
      = Ideal.exp (S (ix2 r t) - (Finset.univ : Finset (Fin b)).fold max (Ideal.ofBits .f32 acc) (fun d => S (ix2 r d))) :=
  congrArg (fun m => Ideal.exp (S (ix2 r t) - m))
    ((kept_apply _ hc hb r t).trans (rowmax_apply S acc hr hφ hacc r))

/-- An [a, b] array divided by its row sums, at (r, t). -/
theorem div_rowsum_apply {a b : ℕ} (E : FVec Ideal ⟨2, ![a, b]⟩ .f32) (acc : BitVec FTy.f32.bits)
    (hr : (⟨2, ![a, b]⟩ : Shape).Reduces [1] ⟨1, ![a]⟩) (hφ : FKind.Formats .f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    divf E (broadcastTo ⟨2, ![a, b]⟩ (shapeCast ⟨2, ![a, 1]⟩
        (multiReduction .add [1] ⟨1, ![a]⟩ E acc hr hφ hacc) hc) hb) (ix2 r t)
      = Ideal.div (E (ix2 r t)) (∑ d : Fin b, E (ix2 r d)) :=
  congrArg (fun m => Ideal.div (E (ix2 r t)) m)
    ((kept_apply _ hc hb r t).trans (SumsAtIndex.rowsum_apply E acc hr hφ hacc r))

/-- A [1, 1, a, b] array read as an [a, b] matrix: entry (i, j) is the array's entry (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix viewed as [1, 1, a, b] reads, at (u, u', i, j), the matrix's entry (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_two, Shape.rowMajor_val_four]
    show i.val * b + j.val = ((u.val * 1 + u'.val) * a + i.val) * b + j.val
    rw [hu, hu']
    simp only [Nat.zero_mul, Nat.zero_add])

end Idealize.ShloMosaic.SoftmaxStages

end
-- ==== Proof.StepFacts.lean ====
/-
  The steps of the fused kernel body on finite data, at the ideal values.

  With every entry of the two operand blocks, of the bias row and of the accumulator finite: the bias rows are finite,
  the accumulator after a step (its old value plus a sum of products) is finite, the running maximum after taking in the
  row maxima of a finite accumulator is finite provided it was not plus infinity before (it starts at minus infinity),
  and the output computed from a finite running maximum is zero: the maximum is centred on its mean over an axis of
  length one, which is the maximum itself, and the centred value multiplies everything else in the tanh form of GELU.
-/
import proofs.«136258_j25056839205334_2_alg».proof.Proof.Gen.KernelIdeal.Skeleton
import proofs.«136258_j25056839205334_2_alg».proof.Proof.ExtReal
import proofs.«136258_j25056839205334_2_alg».proof.Proof.LibKeptColumn
import proofs.«136258_j25056839205334_2_alg».proof.Proof.LibSumsAtIndex
import proofs.«136258_j25056839205334_2_alg».proof.Proof.LibSoftmaxStages
import Idealize.ShloMosaic.Lib.Pipeline.Value
import Idealize.ShloMosaic.Lib.ValueIdx
import Idealize.ShloMosaic.PureOps.Ideal.Laws

noncomputable section

open scoped BigOperators

namespace Cert.KernelIdeal.Steps

open Cert.KernelIdeal Cert.KernelIdeal.Gen Cert.ExtReal Idealize.ShloMosaic Idealize.ShloMosaic.ValueIdx

/-- The bias row repeated down the rows has only entries of the bias row. -/
theorem bias_rows_real (x2 : Vec Ideal S1x2048 .f32) (h2 : ∀ y, IsReal (x2 y)) (j : S2048x2048.Idx) :
    IsReal (k0_pay2 (F := Ideal) x2 j) := by
  unfold k0_pay2
  simp only [shapeCast_self]
  exact h2 _

/-- One accumulation step keeps the accumulator finite: the old entry plus a finite sum of products of finite entries. -/
theorem step_real (x0 x1 : Vec Ideal S2048x256 .f32) (acc : Vec Ideal S2048x2048 .f32)
    (h0 : ∀ y, IsReal (x0 y)) (h1 : ∀ y, IsReal (x1 y)) (ha : ∀ y, IsReal (acc y)) (j : S2048x2048.Idx) :
    IsReal (k0_pay3 (F := Ideal) x0 x1 acc j) := by
  unfold k0_pay3
  simp only [shapeCast_self]
  refine (ha j).add (IsReal.add ?_ (isReal_sum _ _ fun k _ => (h0 _).mul (h1 _)))
  show IsReal (Ideal.ofBits .f32 0x00000000#32)
  rw [Ideal.ofBits_zero_f32]
  exact isReal_zero

/-- The reset value of the running maximum is minus infinity, which is not plus infinity. -/
theorem reset_ne_top (j : S2048x1.Idx) : k0_pay1 (F := Ideal) j ≠ ⊤ := by
  unfold k0_pay1
  simp only [shapeCast_self]
  show Ideal.ofBits .f32 0xFF800000#32 ≠ ⊤
  rw [ofBits_neg_inf]
  exact bot_ne_top

/-- Taking in the row maxima of a finite accumulator makes the running maximum finite, if it was not plus infinity. -/
theorem runmax_real (acc : Vec Ideal S2048x2048 .f32) (mp : Vec Ideal S2048x1 .f32) (ha : ∀ y, IsReal (acc y))
    (hm : ∀ y, mp y ≠ ⊤) (j : S2048x1.Idx) : IsReal (k0_pay4 (F := Ideal) acc mp j) := by
  obtain ⟨p, q, rfl⟩ : ∃ (p : Fin 2048) (q : Fin 1), j = ix2 p q := ⟨j 0, j 1, eq_ix2 j⟩
  unfold k0_pay4
  simp only [shapeCast_self]
  refine isReal_max (hm _) ?_
  rw [KeptColumn.shapeCast_a_a1_apply]
  refine (congrArg IsReal (SoftmaxStages.rowmax_apply acc _ _ _ _ p)).mpr ?_
  refine isReal_fold_max _ _ _ ?_ ⟨0, Finset.mem_univ _⟩ fun d _ => ha _
  rw [ofBits_neg_inf]
  exact bot_ne_top

/-- From a finite running maximum the output block is zero: the centred maximum vanishes and multiplies the rest. -/
theorem out_zero (m : Vec Ideal S2048x1 .f32) (hm : ∀ y, IsReal (m y)) (j : S2048x1.Idx) :
    k0_pay5 (F := Ideal) m j = 0 := by
  obtain ⟨p, q, rfl⟩ : ∃ (p : Fin 2048) (q : Fin 1), j = ix2 p q := ⟨j 0, j 1, eq_ix2 j⟩
  unfold k0_pay5
  simp only [mulf, subf, divf, broadcast, Ideal.mulf_def, Ideal.subf_def, Ideal.divf_def]
  refine mul_eq_zero_of_left (centred_eq_zero (hm _) ?_) _
  refine (KeptColumn.shapeCast_a_a1_apply _ _ p q).trans ?_
  refine (SumsAtIndex.rowsum_apply m _ _ _ _ p).trans ?_
  rw [Fin.sum_univ_one]
  exact congrArg (fun d => m (ix2 p d)) (Subsingleton.elim 0 q)

end Cert.KernelIdeal.Steps

end
-- ==== Proof.PointInvariant.lean ====
/-
  The invariant of the fused kernel along its grid, on finite inputs, at the ideal values: after every grid point the
  accumulator holds only finite numbers and the running row maximum holds nothing equal to plus infinity; and at the
  last point of each row block the output's staging buffer holds zero.

  The grid runs over row blocks, then column blocks, then reduction steps.  The accumulator restarts from the finite
  bias at the first reduction step of a column block and gains a finite sum of finite products at every step.  The
  running maximum restarts from minus infinity at the first step of a row block and takes in the finite row maxima of
  the accumulator at the last reduction step of each column block, so at the last point of a row block it is finite,
  and the output computed from it is zero.
-/
import proofs.«136258_j25056839205334_2_alg».proof.Proof.Gen.KernelIdeal.Frame
import proofs.«136258_j25056839205334_2_alg».proof.Proof.CasePieces
import proofs.«136258_j25056839205334_2_alg».proof.Proof.StepFacts
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Invariant

open Cert.KernelIdeal Cert.KernelIdeal.Gen Cert.KernelIdeal.Pieces Cert.KernelIdeal.Steps Cert.ExtReal

variable (m : (ℓ : Loc nD τ sig) → Buf (Elt Ideal) ℓ)

/-- Every entry of the three argument arrays on core `c` is finite. -/
def FiniteArgs (c : Dev nD) : Prop :=
  (∀ i, IsReal ((m ((c : Thread nD τ).loc main_arg0) : S4096x4096.Idx → EReal) i))
  ∧ (∀ i, IsReal ((m ((c : Thread nD τ).loc main_arg1) : S4096x4096.Idx → EReal) i))
  ∧ (∀ i, IsReal ((m ((c : Thread nD τ).loc main_arg2) : S4096.Idx → EReal) i))

/-! ## The input blocks are finite -/

/-- The bias as the region finds it: the argument vector re-laid as one row. -/
theorem bias_row_eq (c : Dev nD) :
    (V m c main_v0 : S1x4096.Idx → EReal)
      = shapeCast S1x4096 (m ((c : Thread nD τ).loc main_arg2) : S4096.Idx → EReal) shapeCasts_S4096_S1x4096 := by
  dsimp only [Gen.V, Gen.hostOps0]; after_results; rfl

theorem x_block_real (c : Dev nD) (hfin : FiniteArgs m c) (t : Fin cfg0.N) (y : S2048x256.Idx) :
    IsReal (iblk m c 0 t y) := by
  unfold iblk
  rw [View.read_apply]
  show IsReal ((V m c main_arg0 : S4096x4096.Idx → EReal) _)
  rw [V_main_arg0]
  exact hfin.1 _

theorem w_block_real (c : Dev nD) (hfin : FiniteArgs m c) (t : Fin cfg0.N) (y : S2048x256.Idx) :
    IsReal (iblk m c 1 t y) := by
  unfold iblk
  rw [View.read_apply]
  show IsReal ((V m c main_arg1 : S4096x4096.Idx → EReal) _)
  rw [V_main_arg1]
  exact hfin.2.1 _

theorem b_block_real (c : Dev nD) (hfin : FiniteArgs m c) (t : Fin cfg0.N) (y : S1x2048.Idx) :
    IsReal (iblk m c 2 t y) := by
  unfold iblk
  rw [View.read_apply]
  show IsReal ((V m c main_v0 : S1x4096.Idx → EReal) _)
  rw [bias_row_eq]
  exact hfin.2.2 _

/-! ## The invariant, case by case -/

/-- After point `n`: the accumulator is finite everywhere and the running maximum is nowhere plus infinity. -/
def Inv (c : Dev nD) (n : ℕ) (h : n < cfg0.N) : Prop :=
  (∀ y, IsReal ((outsAt0 m c n h).2.1 y)) ∧ (∀ y, (outsAt0 m c n h).2.2 y ≠ ⊤)

theorem inv_first (c : Dev nD) (hfin : FiniteArgs m c) (t : Fin cfg0.N) (h0 : t.val % 32 = 0) (h1 : t.val % 16 = 0) (h2 : ¬t.val % 16 = 15) (h3 : ¬t.val % 32 = 31) : Inv m c t.val t.isLt := by
  rw [Inv, outsAt0_A m c t h0 h1 h2 h3]
  dsimp only
  refine ⟨fun y => ?_, fun y => ?_⟩
  · exact (congrArg (fun v => IsReal (v y)) (acc_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun hh => h2 ((hcond0_2 t).mp hh)) (fun hh => h3 ((hcond0_3 t).mp hh)) (iblk m c 0 t) (iblk m c 1 t) (iblk m c 2 t))).mpr
      (step_real _ _ _ (x_block_real m c hfin t) (w_block_real m c hfin t) (bias_rows_real _ (b_block_real m c hfin t)) y)
  · exact (congrArg (fun v => v y ≠ ⊤) (max_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun hh => h2 ((hcond0_2 t).mp hh)) (fun hh => h3 ((hcond0_3 t).mp hh)) (iblk m c 0 t) (iblk m c 1 t) (iblk m c 2 t))).mpr (reset_ne_top y)

theorem inv_middle (c : Dev nD) (hfin : FiniteArgs m c) (t : Fin cfg0.N) (h0 : ¬t.val % 32 = 0) (h1 : ¬t.val % 16 = 0) (h2 : ¬t.val % 16 = 15) (h3 : ¬t.val % 32 = 31)
    (ih : Inv m c (t.val - 1) (Nat.lt_of_le_of_lt (Nat.sub_le _ _) t.isLt)) : Inv m c t.val t.isLt := by
  rw [Inv, outsAt0_B m c t h0 h1 h2 h3]
  dsimp only
  refine ⟨fun y => ?_, fun y => ih.2 y⟩
  exact (congrArg (fun v => IsReal (v y)) (acc_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) (fun hh => h2 ((hcond0_2 t).mp hh)) (fun hh => h3 ((hcond0_3 t).mp hh)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).mpr
    (step_real _ _ _ (x_block_real m c hfin t) (w_block_real m c hfin t) ih.1 y)

theorem inv_last (c : Dev nD) (hfin : FiniteArgs m c) (t : Fin cfg0.N) (h0 : ¬t.val % 32 = 0) (h1 : ¬t.val % 16 = 0) (h2 : t.val % 16 = 15) (h3 : ¬t.val % 32 = 31)
    (ih : Inv m c (t.val - 1) (Nat.lt_of_le_of_lt (Nat.sub_le _ _) t.isLt)) : Inv m c t.val t.isLt := by
  rw [Inv, outsAt0_C m c t h0 h1 h2 h3]
  dsimp only
  refine ⟨fun y => ?_, fun y => ?_⟩
  · exact (congrArg (fun v => IsReal (v y)) (acc_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) (fun hh => h3 ((hcond0_3 t).mp hh)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).mpr
      (step_real _ _ _ (x_block_real m c hfin t) (w_block_real m c hfin t) ih.1 y)
  · exact ((congrArg (fun v => IsReal (v y)) (max_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) (fun hh => h3 ((hcond0_3 t).mp hh)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).mpr
      (runmax_real _ _ (step_real _ _ _ (x_block_real m c hfin t) (w_block_real m c hfin t) ih.1) ih.2 y)).2

theorem inv_restart (c : Dev nD) (hfin : FiniteArgs m c) (t : Fin cfg0.N) (h0 : ¬t.val % 32 = 0) (h1 : t.val % 16 = 0) (h2 : ¬t.val % 16 = 15) (h3 : ¬t.val % 32 = 31)
    (ih : Inv m c (t.val - 1) (Nat.lt_of_le_of_lt (Nat.sub_le _ _) t.isLt)) : Inv m c t.val t.isLt := by
  rw [Inv, outsAt0_D m c t h0 h1 h2 h3]
  dsimp only
  refine ⟨fun y => ?_, fun y => ih.2 y⟩
  exact (congrArg (fun v => IsReal (v y)) (acc_restart c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (fun hh => h2 ((hcond0_2 t).mp hh)) (fun hh => h3 ((hcond0_3 t).mp hh)) (iblk m c 0 t) (iblk m c 1 t) (iblk m c 2 t) (outsAt0 m c (t.val - 1) (Nat.lt_of_le_of_lt (Nat.sub_le _ _) t.isLt)).2.2)).mpr
    (step_real _ _ _ (x_block_real m c hfin t) (w_block_real m c hfin t) (bias_rows_real _ (b_block_real m c hfin t)) y)

/-- At the last point of a row block the running maximum is finite. -/
theorem max_final_real (c : Dev nD) (hfin : FiniteArgs m c) (t : Fin cfg0.N) (h0 : ¬t.val % 32 = 0) (h1 : ¬t.val % 16 = 0) (h2 : t.val % 16 = 15) (h3 : t.val % 32 = 31)
    (ih : Inv m c (t.val - 1) (Nat.lt_of_le_of_lt (Nat.sub_le _ _) t.isLt)) (y : S2048x1.Idx) :
    IsReal (k0_pay4 (F := Ideal) (k0_pay3 (iblk m c 0 t) (iblk m c 1 t) (outsAt0 m c (t.val - 1) (Nat.lt_of_le_of_lt (Nat.sub_le _ _) t.isLt)).2.1) (outsAt0 m c (t.val - 1) (Nat.lt_of_le_of_lt (Nat.sub_le _ _) t.isLt)).2.2 y) :=
  runmax_real _ _ (step_real _ _ _ (x_block_real m c hfin t) (w_block_real m c hfin t) ih.1) ih.2 y

theorem inv_final (c : Dev nD) (hfin : FiniteArgs m c) (t : Fin cfg0.N) (h0 : ¬t.val % 32 = 0) (h1 : ¬t.val % 16 = 0) (h2 : t.val % 16 = 15) (h3 : t.val % 32 = 31)
    (ih : Inv m c (t.val - 1) (Nat.lt_of_le_of_lt (Nat.sub_le _ _) t.isLt)) : Inv m c t.val t.isLt := by
  rw [Inv, outsAt0_E m c t h0 h1 h2 h3]
  dsimp only
  refine ⟨fun y => ?_, fun y => ?_⟩
  · exact (congrArg (fun v => IsReal (v y)) (acc_final c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).mpr
      (step_real _ _ _ (x_block_real m c hfin t) (w_block_real m c hfin t) ih.1 y)
  · exact ((congrArg (fun v => IsReal (v y)) (max_final c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)).mpr
      (max_final_real m c hfin t h0 h1 h2 h3 ih y)).2

/-! ## The invariant at every point, and the output at the last point of a row block -/

theorem inv (c : Dev nD) (hfin : FiniteArgs m c) (n : ℕ) : ∀ h : n < cfg0.N, Inv m c n h := by
  induction n using Nat.strong_induction_on with
  | _ n ih =>
    intro h
    have hN : n < 64 := lt_of_lt_of_eq h (show cfg0.N = 64 from N_0)
    have prev : ¬n % 32 = 0 → Inv m c (n - 1) (Nat.lt_of_le_of_lt (Nat.sub_le _ _) h) :=
      fun hne => ih (n - 1) (by omega) _
    by_cases h0 : n % 32 = 0 <;> by_cases h1 : n % 16 = 0 <;> by_cases h2 : n % 16 = 15 <;> by_cases h3 : n % 32 = 31
    all_goals first
      | (exfalso; omega)
      | exact inv_first m c hfin ⟨n, h⟩ h0 h1 h2 h3
      | exact inv_middle m c hfin ⟨n, h⟩ h0 h1 h2 h3 (prev h0)
      | exact inv_last m c hfin ⟨n, h⟩ h0 h1 h2 h3 (prev h0)
      | exact inv_restart m c hfin ⟨n, h⟩ h0 h1 h2 h3 (prev h0)
      | exact inv_final m c hfin ⟨n, h⟩ h0 h1 h2 h3 (prev h0)

/-- At the last point of a row block the output's staging buffer holds zero. -/
theorem out_final_zero (c : Dev nD) (hfin : FiniteArgs m c) (t : Fin cfg0.N) (h3 : t.val % 32 = 31) :
    (outsAt0 m c t.val t.isLt).1 = fun _ => (0 : EReal) := by
  have hN : t.val < 64 := lt_of_lt_of_eq t.isLt (show cfg0.N = 64 from N_0)
  have h0 : ¬t.val % 32 = 0 := by omega
  have h1 : ¬t.val % 16 = 0 := by omega
  have h2 : t.val % 16 = 15 := by omega
  have ih := inv m c hfin (t.val - 1) (Nat.lt_of_le_of_lt (Nat.sub_le _ _) t.isLt)
  rw [outsAt0_E m c t h0 h1 h2 h3]
  dsimp only
  refine (out_final c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact funext fun y => out_zero _ (max_final_real m c hfin t h0 h1 h2 h3 ih) y

end Cert.KernelIdeal.Invariant

end
-- ==== Proof.KernelZero.lean ====
/-
  The fused kernel on finite inputs, at the ideal values, ends with the zero column in its result array.

  The output block of row block i is written back once, after the last grid point of that row block, and there its
  staging buffer holds zero.  The two row blocks tile the result, so the whole array ends at zero.
-/
import proofs.«136258_j25056839205334_2_alg».proof.Proof.Gen.KernelIdeal.Value
import proofs.«136258_j25056839205334_2_alg».proof.Proof.PointInvariant
import Idealize.ShloMosaic.Lib.Pipeline.Value

noncomputable section

open Idealize.ShloMosaic Idealize.ShloMosaic.TcCoe Idealize.SL.Sem
open Idealize.ShloMosaic.Pipeline (Dat)

namespace Cert.KernelIdeal.Zero

open Cert.KernelIdeal Cert.KernelIdeal.Gen Cert.KernelIdeal.Invariant Cert.ExtReal

variable (m : (ℓ : Loc nD τ sig) → Buf (Elt Ideal) ℓ) (ρ : Dev nD → PrngReg)

/-- The zero column, as contents of the result array. -/
abbrev zeroColumn (c : Dev nD) : Buf (Elt Ideal) ((c : Thread nD τ).loc main_v1) := fun _ => (0 : EReal)

/-- Every write-back writes zeros: it happens at the last point of a row block. -/
theorem flushed_zero (c : Dev nD) (hfin : FiniteArgs m c) (t : Fin cfg0.N) (hf : (cfg0.win 3).flush t = true) :
    (dats m 0 c).flushed 3 t = ((cfg0.win 3).blk t).view.read (Elt Ideal) (zeroColumn c) := by
  have h3 : t.val % 32 = 31 := (flush0_3 t).mp hf
  rw [Cert.KernelIdeal.Value.flushed3, out_final_zero m c hfin t h3]
  funext y
  rw [View.read_apply]
  rfl

/-- The output's block index at a grid point: the row block, and column block zero (decided over the grid). -/
theorem out_block_index : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- An index of the result is in point `t`'s block iff each coordinate is in the block's range on its axis. -/
theorem mem_out_block (t : Fin cfg0.N) (i : S4096x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v1).slice (win0_3.rect t)).set ↔ _
  rw [View.set_slice_whole, Rect.mem_set_unit]
  exact Iff.rfl

/-- Row r of the result lies in the block written back at the last point of row block r / 2048. -/
theorem covered (i : S4096x1.Idx) :
    ∃ t : Fin cfg0.N, (cfg0.win 3).flush t = true ∧ i ∈ ((cfg0.win 3).blk t).view.set := by
  have hN : cfg0.N = 64 := N_0
  have h0 : (i 0 : Nat) < 4096 := (i 0).isLt
  have h1 : (i 1 : Nat) < 1 := (i 1).isLt
  refine ⟨⟨32 * ((i 0).val / 2048) + 31, by rw [hN]; omega⟩, (flush0_3 _).mpr (by dsimp only; omega), ?_⟩
  rw [mem_out_block]
  obtain ⟨e0, e1⟩ := out_block_index ⟨32 * ((i 0).val / 2048) + 31, by rw [hN]; omega⟩
  intro a
  match a with
  | ⟨0, _⟩ =>
    show win0_3.index _ (0 : Fin 2) * 2048 ≤ (i 0).val ∧ (i 0).val < win0_3.index _ (0 : Fin 2) * 2048 + 2048
    rw [e0]; dsimp only; omega
  | ⟨1, _⟩ =>
    show win0_3.index _ (1 : Fin 2) * 1 ≤ (i 1).val ∧ (i 1).val < win0_3.index _ (1 : Fin 2) * 1 + 1
    rw [e1]; omega

/-- So the result array ends at the zero column. -/
theorem final_zero (c : Dev nD) (hfin : FiniteArgs m c) : (dats m 0 c).arrAt 3 cfg0.N = zeroColumn c :=
  (dats m 0 c).arrAt_eq_of_cover 3 (zeroColumn c) (flushed_zero m c hfin) covered

/-- The kernel's run on finite inputs: the result array at the zero column, the arguments unchanged. -/
theorem run (hfin : ∀ c, FiniteArgs m c) :
    θ_run defs (onTc (τ := τ) (main (F := Ideal))) ⟨m, fun _ => 0, ρ⟩ fun r => ∀ c : Dev nD,
      r.2.mem ((c : Thread nD τ).loc main_v1) = zeroColumn c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_zero m c (hfin c)), (h c).2⟩)
    (Cert.KernelIdeal.Value.run_blocks m ρ)

end Cert.KernelIdeal.Zero

end
-- ==== Proof.ReferenceZero.lean ====
/-
  The reference on finite inputs, at the ideal values: every entry of x @ W.T + b is a finite sum of finite products plus
  a finite bias, so every row maximum m is finite; the mean of m over its axis of length one is m; the centred value
  m - mean(m) is zero, and it multiplies everything else in the tanh form of GELU: the result is the zero column.
-/
import proofs.«136258_j25056839205334_2_alg».proof.Proof.Gen.ReferenceIdeal.Read
import proofs.«136258_j25056839205334_2_alg».proof.Proof.ExtReal
import Idealize.ShloMosaic.PureOps.Ideal.Laws

noncomputable section

open scoped BigOperators

namespace Cert.ReferenceIdeal.Zero

open Cert.ReferenceIdeal Cert.ReferenceIdeal.Gen Cert.ReferenceIdeal.Read Cert.ExtReal Idealize.ShloMosaic

variable (x0 x1 : (⟨S4096x4096, .f32⟩ : BufTy).Contents (Elt Ideal)) (x2 : (⟨S4096, .f32⟩ : BufTy).Contents (Elt Ideal))

/-- Every entry of x @ W.T + b is finite. -/
theorem affine_real (h0 : ∀ i, IsReal (x0 i)) (h1 : ∀ i, IsReal (x1 i)) (h2 : ∀ i, IsReal (x2 i)) (i : S4096x4096.Idx) :
    IsReal (val_main_v3 (F := Ideal) x0 x1 x2 i) := by
  rw [val_main_v3_apply, val_main_v0_apply, val_main_v2_apply, val_main_v1_apply]
  exact (isReal_sum _ _ fun k _ => (h0 _).mul (h1 _)).add (h2 _)

/-- Every row maximum is finite: the maximum from minus infinity over a row of 4096 finite numbers. -/
theorem rowmax_real (h0 : ∀ i, IsReal (x0 i)) (h1 : ∀ i, IsReal (x1 i)) (h2 : ∀ i, IsReal (x2 i)) (j : S4096.Idx) :
    IsReal (val_main_v4 (F := Ideal) x0 x1 x2 j) := by
  unfold val_main_v4
  rw [Host.reduce_eq_fold_single FloatOps.maximumf _ _ reducesTo_S4096x4096_S4096_d1 (by decide) h_S_ j]
  refine isReal_fold_max _ _ _ ?_ ⟨⟨0, by decide⟩, Finset.mem_univ _⟩ fun k _ => affine_real x0 x1 x2 h0 h1 h2 _
  show Ideal.ofBits .f32 0xFF800000#32 ≠ ⊤
  rw [ofBits_neg_inf]
  exact bot_ne_top

/-- The one entry the mean over the unit axis sums is the entry itself. -/
theorem unit_axis_idx (i : S4096x1.Idx) : idx_main_v6 (idx_main_v7 i) (0 : Fin 1) = i := by
  funext a
  match a with
  | ⟨0, _⟩ => rfl
  | ⟨1, h⟩ =>
    apply Fin.ext
    have h1 : (i ⟨1, h⟩).val < 1 := (i ⟨1, h⟩).isLt
    show (0 : Nat) = (i ⟨1, h⟩).val
    omega

/-- The result is zero at every index. -/
theorem result_zero (h0 : ∀ i, IsReal (x0 i)) (h1 : ∀ i, IsReal (x1 i)) (h2 : ∀ i, IsReal (x2 i)) (i : S4096x1.Idx) :
    val_main_v23 (F := Ideal) x0 x1 x2 i = 0 := by
  rw [val_main_v23_apply]
  refine mul_eq_zero_of_left ?_ _
  rw [val_main_v10_apply, val_main_v9_apply, val_main_v7_apply, val_main_v6_apply, val_main_v8_apply,
    val_main_cst_1_apply, val_main_cst_0_apply]
  refine centred_eq_zero (m := val_main_v5 (F := Ideal) x0 x1 x2 i) ?_ ?_
  · rw [val_main_v5_apply]
    exact rowmax_real x0 x1 x2 h0 h1 h2 _
  · show Ideal.ofBits .f32 0x00000000#32 + ∑ k : Fin 1, val_main_v5 (F := Ideal) x0 x1 x2 (idx_main_v6 (idx_main_v7 i) k) = _
    rw [Ideal.ofBits_zero_f32, zero_add, Fin.sum_univ_one, unit_axis_idx]

end Cert.ReferenceIdeal.Zero

end
-- ==== Proof.lean ====
/-
  The fused kernel computes, for every row of x @ W.T + b, the row maximum m (accumulating the product over blocks of the
  contraction axis and the maximum over column blocks), then m - mean(m) over an axis of length one, then the tanh form of
  GELU; the reference computes the same from one whole product.  On finite inputs every entry of x @ W.T + b is a finite
  extended real, so each row maximum is finite on both sides, its mean over the unit axis is itself, the centred value is
  zero, and GELU's leading factor makes the result zero: both programs end with the zero column.

  Modules: ExtReal (finite extended reals, the centred value), FiniteInputs (the precondition read back), StepFacts and
  CasePieces (the kernel body's steps and what each control case leaves), PointInvariant (the induction over the grid),
  KernelZero (the kernel's result array), ReferenceZero (the reference's result).  The three frames are the generated
  frame runs; the idealization rewrote nothing.
-/
import proofs.«136258_j25056839205334_2_alg».proof.Defs
import proofs.«136258_j25056839205334_2_alg».proof.Proof.Gen.Kernel
import proofs.«136258_j25056839205334_2_alg».proof.Proof.Gen.Kernel.Frame
import proofs.«136258_j25056839205334_2_alg».proof.Proof.Gen.KernelIdeal
import proofs.«136258_j25056839205334_2_alg».proof.Proof.Gen.KernelIdeal.Frame
import proofs.«136258_j25056839205334_2_alg».proof.Proof.Gen.KernelIdeal.Value
import proofs.«136258_j25056839205334_2_alg».proof.Proof.Gen.ReferenceIdeal
import proofs.«136258_j25056839205334_2_alg».proof.Proof.Gen.ReferenceIdeal.Run
import proofs.«136258_j25056839205334_2_alg».proof.Proof.Gen.ReferenceIdeal.Read
import proofs.«136258_j25056839205334_2_alg».proof.Proof.Gen.Pre_finite_inputs
import proofs.«136258_j25056839205334_2_alg».proof.Proof.FiniteInputs
import proofs.«136258_j25056839205334_2_alg».proof.Proof.KernelZero
import proofs.«136258_j25056839205334_2_alg».proof.Proof.ReferenceZero
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every entry of the kernel's three argument arrays is finite. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Invariant.FiniteArgs m c :=
  Cert.FiniteInputs.finite_of_pre _ _ _ (hpre c)

/-- Both programs end with the zero column: the kernel by the induction over its grid, the reference index by index. -/
theorem algebraic : Cert.algebraic_KernelIdeal_ReferenceIdeal := by
  intro m ρ m' ρ' hpre hagree
  have hfin := fun c => finite_args m hpre c
  refine ⟨fun c => Cert.KernelIdeal.Zero.zeroColumn c, Cert.KernelIdeal.Zero.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  obtain ⟨f0, f1, f2⟩ := hfin c
  funext i
  exact Cert.ReferenceIdeal.Zero.result_zero _ _ _ f0 f1 f2 i

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
